-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x8192 : Shape := ⟨2, ![2048, 8192]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S2048x8192 .f32) (main_arg6 : FVec F S8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S2048x8192 .f32 := Host.absf main_arg5
  let main_cst_8 : FVec F S_ .f32 := constant S_ .f32 0x7F800000#32
  let main_v25 : FVec F S2048x8192 .f32 := broadcastInDim S2048x8192 ![] bcast_S_S2048x8192 main_cst_8
  let main_v26 : IVec S2048x8192 1 := cmpf .olt main_v24 main_v25
  let main_c_9 : IVec S_ 1 := constantI S_ 1 1#1
  let main_v27 : IVec S_ 1 := (fun x v => Host.reduce IntOp.andi x v reducesTo_S2048x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S8192x2048 .f32) (main_arg1 : FVec F S8192x2048 .f32) (main_arg2 : FVec F S8192x2048 .f32) (main_arg3 : FVec F S2048x8192 .f32) (main_arg4 : FVec F S8192 .f32) (main_arg5 : FVec F S2048x8192 .f32) (main_arg6 : FVec F S8192 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_v13 main_v16
-- ==== Kernel.lean ====
abbrev S8192x2048 : Shape := ⟨2, ![8192, 2048]⟩
abbrev S2048x8192 : Shape := ⟨2, ![2048, 8192]⟩
abbrev S8192 : Shape := ⟨1, ![8192]⟩
abbrev S1x8192 : Shape := ⟨2, ![1, 8192]⟩
abbrev S256x128 : Shape := ⟨2, ![256, 128]⟩
abbrev S256x2048 : Shape := ⟨2, ![256, 2048]⟩
abbrev S128x8192 : Shape := ⟨2, ![128, 8192]⟩
abbrev S256x8192 : Shape := ⟨2, ![256, 8192]⟩
abbrev S256x512 : Shape := ⟨2, ![256, 512]⟩
abbrev S1x512 : Shape := ⟨2, ![1, 512]⟩

abbrev nBuf : Space → Nat
  | .hbm => 13
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .f32⟩
  | .hbm, ⟨5, _⟩ => ⟨S2048x8192, .f32⟩
  | .hbm, ⟨6, _⟩ => ⟨S8192, .f32⟩
  | .hbm, ⟨7, _⟩ => ⟨S2048x8192, .bf16⟩
  | .hbm, ⟨8, _⟩ => ⟨S2048x8192, .bf16⟩
  | .hbm, ⟨9, _⟩ => ⟨S8192, .f32⟩
  | .hbm, ⟨10, _⟩ => ⟨S1x8192, .f32⟩
  | .hbm, ⟨11, _⟩ => ⟨S8192x2048, .f32⟩
  | .hbm, ⟨12, _⟩ => ⟨S8192x2048, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x2048, .f32⟩
  | .local _ .vmem, ⟨5, _⟩ => ⟨S256x2048, .f32⟩
  | .local _ .vmem, ⟨6, _⟩ => ⟨S128x8192, .bf16⟩
  | .local _ .vmem, ⟨7, _⟩ => ⟨S128x8192, .bf16⟩
  | .local _ .vmem, ⟨8, _⟩ => ⟨S128x8192, .bf16⟩
  | .local _ .vmem, ⟨9, _⟩ => ⟨S128x8192, .bf16⟩
  | .local _ .vmem, ⟨10, _⟩ => ⟨S1x8192, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x8192, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_13 : BitVec 32 := 0#32
  let v21 : BitVec 1 := Scalar.cmpi .ne v20 c0_i32_13
  v21

def k0_off1 (c0_i32_15 : BitVec 32) (c0_i32_14 : BitVec 32) : Fin 2 → Nat :=
  let c0_16 : Index := 0#32
  let c512_i32 : BitVec 32 := 512#32
  let v22 : BitVec 32 := Scalar.muli c0_i32_14 c512_i32
  let v23 : BitVec 32 := Scalar.addi c0_i32_15 v22
  let v27 : Index := Scalar.indexCast v23
  ![0, v27.toNat]
def k0_off2 (c0_i32_15 : BitVec 32) (c0_i32_14 : BitVec 32) : Fin 2 → Nat :=
  let c0_17 : Index := 0#32
  let c512_i32 : BitVec 32 := 512#32
  let v22 : BitVec 32 := Scalar.muli c0_i32_14 c512_i32
  let v23 : BitVec 32 := Scalar.addi c0_i32_15 v22
  let v29 : Index := Scalar.indexCast v23
  ![0, v29.toNat]
def k0_off3 (c0_i32_14 : BitVec 32) : Fin 2 → Nat :=
  let c0_24 : Index := 0#32
  let c512_i32 : BitVec 32 := 512#32
  let v22 : BitVec 32 := Scalar.muli c0_i32_14 c512_i32
  let v59 : Index := Scalar.indexCast v22
  ![0, v59.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x128_S256x128_0_0 : ∀ a, (![0, 0] : Fin 2 → Nat) a + S256x128.size a ≤ S256x128.size a
  h_S256x128 : 0 < S256x128.numel
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  h_S256x512 : 0 < S256x512.numel
  h_S1x512 : 0 < S1x512.numel
  shapeCasts_S1x512_S1x512 : S1x512.ShapeCasts S1x512
  broadcasts_S1x512_S256x512 : S1x512.Broadcasts S256x512
  dot_S256x128_S128x8192_S256x8192_1_0_0_1_n_n_wf : DotDims.WF S256x128 S128x8192 S256x8192 [1] [0] [0] [1] [] []
  hrank0 : 0 < grid0.rank
  k0_off1_inb : ∀ i : grid0.Coords, ∀ (k0_h2 : k0_cond2 i = 1#1), ∀ (r₁ : Fin 4) (r₂ : Fin 4), ∀ a, (k0_off1 (BitVec.ofNat 32 (2048 * r₁.val)) (BitVec.ofNat 32 r₂.val)) a + S256x512.size a ≤ S256x8192.size a
  k0_off2_inb : ∀ i : grid0.Coords, ∀ (k0_h2 : k0_cond2 i = 1#1), ∀ (r₁ : Fin 4) (r₂ : Fin 4), ∀ a, (k0_off2 (BitVec.ofNat 32 (2048 * r₁.val)) (BitVec.ofNat 32 r₂.val)) a + S1x512.size a ≤ S1x8192.size a
  k0_off3_inb : ∀ i : grid0.Coords, ∀ (k0_h2 : k0_cond2 i = 1#1), ∀ (r : Fin 4), ∀ a, (k0_off3 (BitVec.ofNat 32 r.val)) a + S256x512.size a ≤ S256x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x2048.size a
  hwx0_0 : ∀ i : grid0.Coords, EltTy.bits .f32 = 32 ∨ (Rect.block (s := S8192x2048) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x2048.size a
  hwx0_1 : ∀ i : grid0.Coords, EltTy.bits .f32 = 32 ∨ (Rect.block (s := S8192x2048) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S2048x8192.size a
  hwx0_3 : ∀ i : grid0.Coords, EltTy.bits .bf16 = 32 ∨ (Rect.block (s := S2048x8192) S128x8192.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S2048x8192.size a
  hwx0_4 : ∀ i : grid0.Coords, EltTy.bits .bf16 = 32 ∨ (Rect.block (s := S2048x8192) S128x8192.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .f32 = 32 ∨ (Rect.block (s := S1x8192) S1x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S8192x2048.size a
  hwx0_6 : ∀ i : grid0.Coords, EltTy.bits .f32 = 32 ∨ (Rect.block (s := S8192x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S8192x2048.size a
  hwx0_7 : ∀ i : grid0.Coords, EltTy.bits .f32 = 32 ∨ (Rect.block (s := S8192x2048) S256x2048.size (cc0_transform_7 i) (hinb0_7 i)).WholeWords (EltTy.packing .f32)

variable [Facts₀]

def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x8192 : Shape := ⟨2, ![2048, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .f32⟩
  | .hbm, ⟨5, _⟩ => ⟨S2048x8192, .f32⟩
  | .hbm, ⟨6, _⟩ => ⟨S8192, .f32⟩
  | .hbm, ⟨7, _⟩ => ⟨S8192x8192, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.LstmCell.lean ====
/-
  One step of an LSTM cell as a function of its argument arrays, entry by entry, on the extended reals.

  The four gates' pre-activations are the columns of one [8192, 8192] matrix: entry (p, f) is
  (x·W_i)(p, f) + b_i(f) + (h·W_h)(p, f) + b_h(f), each product an inner product over 2048 terms. Column block g
  (columns 2048·g … 2048·g + 2047) belongs to gate g, in the order forget, input, candidate, output. With s the logistic
  function, the new cell state at (p, q) is s(forget)·c(p, q) + s(input)·tanh(candidate) and the new hidden state is
  s(output)·tanh(new cell state).

  The pre-activation can be summed in another order: the 2048 terms of both inner products taken in 16 consecutive blocks
  of 128, the two block sums of a block added to each other, the blocks added up from zero, and the two biases added to each
  other first. Only commutativity and associativity of the addition are used, so the two orders agree on all extended
  reals, infinite entries included.
-/
import Idealize.ShloMosaic.PureOps.Ideal
import Idealize.ShloMosaic.Lib.ValueIdx
import proofs.«111230_j73048803770861_2_alg».proof.Proof.LibBlockedSum

noncomputable section

namespace Cert.LstmCell

open Idealize.ShloMosaic Idealize.ShloMosaic.ValueIdx
open scoped BigOperators

/-- The shape of the activations x, h, c and of both results. -/
abbrev SX : Shape := ⟨2, ![8192, 2048]⟩
/-- The shape of the two weight matrices. -/
abbrev SW : Shape := ⟨2, ![2048, 8192]⟩
/-- The shape of the two bias vectors. -/
abbrev SB : Shape := ⟨1, ![8192]⟩

/-- The new cell state from the forget, input and candidate pre-activations and the old cell state. -/
def cellC (fp ip gp c : EReal) : EReal := Ideal.logistic fp * c + Ideal.logistic ip * Ideal.tanh gp

/-- The new hidden state from the output pre-activation and the new cell state. -/
def cellH (op cn : EReal) : EReal := Ideal.logistic op * Ideal.tanh cn

/-- Column q of gate g among the 8192 gate columns. -/
def col (g : Fin 4) (q : Fin 2048) : Fin 8192 := ⟨2048 * g.val + q.val, by have := g.isLt; have := q.isLt; omega⟩

/-- Row p of row block r among the 8192 rows (32 blocks of 256 rows). -/
def grow (r : Fin 32) (p : Fin 256) : Fin 8192 := ⟨256 * r.val + p.val, by have := r.isLt; have := p.isLt; omega⟩

/-- Position d of reduction step s among the 2048 positions of an inner product (16 steps of 128 positions). -/
def kpos (s : Fin 16) (d : Fin 128) : Fin 2048 := ⟨128 * s.val + d.val, by have := s.isLt; have := d.isLt; omega⟩

/-- Term k of the inner product of row p of a with column f of w; zero from the extent 2048 on. -/
def dotTerm (a : FVec Ideal SX .f32) (w : FVec Ideal SW .f32) (p f : Fin 8192) (k : ℕ) : EReal :=
  if hk : k < 2048 then a (ix2 p ⟨k, hk⟩) * w (ix2 ⟨k, hk⟩ f) else 0

/-- The pre-activation at row p, gate column f. -/
def pre (x h : FVec Ideal SX .f32) (wi wh : FVec Ideal SW .f32) (bi bh : FVec Ideal SB .f32) (p f : Fin 8192) : EReal :=
  ((∑ d : Fin 2048, x (ix2 p d) * wi (ix2 d f)) + bi (ix1 f)) + ((∑ d : Fin 2048, h (ix2 p d) * wh (ix2 d f)) + bh (ix1 f))

/-- The row of an entry of an [8192, 2048] array. -/
def xrow (j : SX.Idx) : Fin 8192 := ⟨(j 0).val, idx2_lt0 j⟩
/-- The hidden column of an entry of an [8192, 2048] array. -/
def xcol (j : SX.Idx) : Fin 2048 := ⟨(j 1).val, idx2_lt1 j⟩

/-- The new cell state, entry by entry. -/
def newC (x h c : FVec Ideal SX .f32) (wi wh : FVec Ideal SW .f32) (bi bh : FVec Ideal SB .f32) : FVec Ideal SX .f32 :=
  fun j => cellC (pre x h wi wh bi bh (xrow j) (col 0 (xcol j))) (pre x h wi wh bi bh (xrow j) (col 1 (xcol j)))
    (pre x h wi wh bi bh (xrow j) (col 2 (xcol j))) (c j)

/-- The new hidden state, entry by entry. -/
def newH (x h c : FVec Ideal SX .f32) (wi wh : FVec Ideal SW .f32) (bi bh : FVec Ideal SB .f32) : FVec Ideal SX .f32 :=
  fun j => cellH (pre x h wi wh bi bh (xrow j) (col 3 (xcol j))) (newC x h c wi wh bi bh j)

/-- Reduction step s's part of the two inner products of a pre-activation: 128 terms of x·W_i plus 128 terms of h·W_h. -/
def stepSum (x h : FVec Ideal SX .f32) (wi wh : FVec Ideal SW .f32) (p f : Fin 8192) (s : ℕ) : EReal :=
  (∑ d : Fin 128, dotTerm x wi p f (128 * s + d.val)) + ∑ d : Fin 128, dotTerm h wh p f (128 * s + d.val)

/-- A term at a position inside the extent is the product there. -/
theorem dotTerm_kpos (a : FVec Ideal SX .f32) (w : FVec Ideal SW .f32) (p f : Fin 8192) (s : Fin 16) (d : Fin 128) :
    dotTerm a w p f (128 * s.val + d.val) = a (ix2 p (kpos s d)) * w (ix2 (kpos s d) f) := by
  have hk : 128 * s.val + d.val < 2048 := (kpos s d).isLt
  rw [dotTerm, dif_pos hk]; rfl

/-- The terms of an inner product, summed over their 2048 positions, are the inner product. -/
theorem sum_dotTerm (a : FVec Ideal SX .f32) (w : FVec Ideal SW .f32) (p f : Fin 8192) :
    ∑ k : Fin 2048, dotTerm a w p f k.val = ∑ d : Fin 2048, a (ix2 p d) * w (ix2 d f) :=
  Finset.sum_congr rfl fun k _ => by rw [dotTerm, dif_pos k.isLt]

/-- Two sums of 2048 terms taken together in 16 blocks of 128, from zero, are the two sums added. -/
theorem blocked (a b : ℕ → EReal) :
    (0 : EReal) + ∑ s ∈ Finset.range 16, ((∑ d : Fin 128, a (128 * s + d.val)) + ∑ d : Fin 128, b (128 * s + d.val))
      = (∑ k : Fin 2048, a k.val) + ∑ k : Fin 2048, b k.val := by
  rw [zero_add, Finset.sum_add_distrib, Cert.LibBlockedSum.sum_range_blocks 16 128 a,
    Cert.LibBlockedSum.sum_range_blocks 16 128 b]

/-- The pre-activation summed block by block, the biases added to each other first, is the pre-activation. -/
theorem pre_blocked (x h : FVec Ideal SX .f32) (wi wh : FVec Ideal SW .f32) (bi bh : FVec Ideal SB .f32) (p f : Fin 8192) :
    ((0 : EReal) + ∑ s ∈ Finset.range 16, stepSum x h wi wh p f s) + (bi (ix1 f) + bh (ix1 f))
      = pre x h wi wh bi bh p f := by
  unfold stepSum
  rw [blocked, sum_dotTerm, sum_dotTerm, pre, add_add_add_comm]

end Cert.LstmCell

end
-- ==== Proof.CellPayloads.lean ====
/-
  The epilogue's arithmetic, read at one entry of a [256, 512] column chunk.

  At the last reduction step the kernel finishes a row block in four column chunks of 512 hidden columns. For a chunk it
  loads four [256, 512] slabs of the accumulated pre-activations (one per gate) and four [1, 512] slabs of the summed
  bias, adds each bias slab to every row of its gate slab, and applies the cell's formulas entry by entry. The program's
  text cuts this arithmetic into named values in a different way for each of the four chunks; this file reads every one of
  those values at an entry (p, q) of the chunk, where each is the cell's formula of the loaded entries.
-/
import proofs.«111230_j73048803770861_2_alg».proof.Proof.Gen.KernelIdeal.Skeleton
import proofs.«111230_j73048803770861_2_alg».proof.Proof.LstmCell
import Idealize.ShloMosaic.Lib.Pipeline.Value
import Idealize.ShloMosaic.Lib.ValueIdx
import Idealize.ShloMosaic.Lib.ValueLayout

noncomputable section

namespace Cert.KernelIdeal.CellPayloads

open Idealize.ShloMosaic Idealize.ShloMosaic.ValueIdx Cert.KernelIdeal Cert.KernelIdeal.Gen Cert.LstmCell

/-- A gate slab with its bias slab added to every row, at entry (p, q): the slab's entry plus the bias of column q. -/
theorem slab_add_bias (a : FVec Ideal S256x512 .f32) (b : FVec Ideal S1x512 .f32) (p : Fin 256) (q : Fin 512) :
    addf (F := Ideal) (φ := .f32) a (broadcastTo S256x512 (shapeCast S1x512 b shapeCasts_S1x512_S1x512) broadcasts_S1x512_S256x512) (ix2 p q)
      = a (ix2 p q) + b (ix2 (0 : Fin 1) q) := by
  rw [addf_apply, shapeCast_self, broadcastTo_1b_ab_apply]

/-- A bias slab spread over the rows, at entry (p, q). -/
theorem bias_rows (b : FVec Ideal S1x512 .f32) (p : Fin 256) (q : Fin 512) :
    broadcastTo S256x512 (shapeCast S1x512 b shapeCasts_S1x512_S1x512) broadcasts_S1x512_S256x512 (ix2 p q)
      = b (ix2 (0 : Fin 1) q) := by
  rw [shapeCast_self, broadcastTo_1b_ab_apply]

/-! ### Chunk 0: the new cell state and the new hidden state straight from the loads -/

theorem pay5_apply (a0 : FVec Ideal S256x512 .f32) (b0 : FVec Ideal S1x512 .f32) (a1 : FVec Ideal S256x512 .f32)
    (b1 : FVec Ideal S1x512 .f32) (a2 : FVec Ideal S256x512 .f32) (b2 : FVec Ideal S1x512 .f32) (c : FVec Ideal S256x512 .f32)
    (p : Fin 256) (q : Fin 512) :
    k0_pay5 (F := Ideal) a0 b0 a1 b1 a2 b2 c (ix2 p q)
      = cellC (a0 (ix2 p q) + b0 (ix2 (0 : Fin 1) q)) (a1 (ix2 p q) + b1 (ix2 (0 : Fin 1) q))
          (a2 (ix2 p q) + b2 (ix2 (0 : Fin 1) q)) (c (ix2 p q)) := by
  rw [← slab_add_bias a0 b0, ← slab_add_bias a1 b1, ← slab_add_bias a2 b2]
  rfl

theorem pay6_apply (a0 : FVec Ideal S256x512 .f32) (b0 : FVec Ideal S1x512 .f32) (a1 : FVec Ideal S256x512 .f32)
    (b1 : FVec Ideal S1x512 .f32) (a2 : FVec Ideal S256x512 .f32) (b2 : FVec Ideal S1x512 .f32) (a3 : FVec Ideal S256x512 .f32)
    (b3 : FVec Ideal S1x512 .f32) (c : FVec Ideal S256x512 .f32) (p : Fin 256) (q : Fin 512) :
    k0_pay6 (F := Ideal) a0 b0 a1 b1 a2 b2 a3 b3 c (ix2 p q)
      = cellH (a3 (ix2 p q) + b3 (ix2 (0 : Fin 1) q)) (k0_pay5 (F := Ideal) a0 b0 a1 b1 a2 b2 c (ix2 p q)) := by
  rw [← slab_add_bias a3 b3]
  rfl

/-! ### Chunk 1: the four activated gates first, then the two states from them -/

theorem pay7_apply (a : FVec Ideal S256x512 .f32) (b : FVec Ideal S1x512 .f32) (p : Fin 256) (q : Fin 512) :
    k0_pay7 (F := Ideal) a b (ix2 p q) = Ideal.logistic (a (ix2 p q) + b (ix2 (0 : Fin 1) q)) := by
  rw [← slab_add_bias a b]; rfl

theorem pay8_apply (a : FVec Ideal S256x512 .f32) (b : FVec Ideal S1x512 .f32) (p : Fin 256) (q : Fin 512) :
    k0_pay8 (F := Ideal) a b (ix2 p q) = Ideal.logistic (a (ix2 p q) + b (ix2 (0 : Fin 1) q)) := by
  rw [← slab_add_bias a b]; rfl

theorem pay9_apply (a : FVec Ideal S256x512 .f32) (b : FVec Ideal S1x512 .f32) (p : Fin 256) (q : Fin 512) :
    k0_pay9 (F := Ideal) a b (ix2 p q) = Ideal.tanh (a (ix2 p q) + b (ix2 (0 : Fin 1) q)) := by
  rw [← slab_add_bias a b]; rfl

theorem pay10_apply (a : FVec Ideal S256x512 .f32) (b : FVec Ideal S1x512 .f32) (p : Fin 256) (q : Fin 512) :
    k0_pay10 (F := Ideal) a b (ix2 p q) = Ideal.logistic (a (ix2 p q) + b (ix2 (0 : Fin 1) q)) := by
  rw [← slab_add_bias a b]; rfl

theorem pay11_apply (sf si tg c : FVec Ideal S256x512 .f32) (x : S256x512.Idx) :
    k0_pay11 (F := Ideal) sf si tg c x = sf x * c x + si x * tg x := rfl

theorem pay12_apply (sf si tg so c : FVec Ideal S256x512 .f32) (x : S256x512.Idx) :
    k0_pay12 (F := Ideal) sf si tg so c x = so x * Ideal.tanh (k0_pay11 (F := Ideal) sf si tg c x) := rfl

/-! ### Chunk 2: three pre-activations and the fourth bias slab first -/

theorem pay13_apply (a : FVec Ideal S256x512 .f32) (b : FVec Ideal S1x512 .f32) (p : Fin 256) (q : Fin 512) :
    k0_pay13 (F := Ideal) a b (ix2 p q) = a (ix2 p q) + b (ix2 (0 : Fin 1) q) := slab_add_bias a b p q

theorem pay14_apply (a : FVec Ideal S256x512 .f32) (b : FVec Ideal S1x512 .f32) (p : Fin 256) (q : Fin 512) :
    k0_pay14 (F := Ideal) a b (ix2 p q) = a (ix2 p q) + b (ix2 (0 : Fin 1) q) := slab_add_bias a b p q

theorem pay15_apply (a : FVec Ideal S256x512 .f32) (b : FVec Ideal S1x512 .f32) (p : Fin 256) (q : Fin 512) :
    k0_pay15 (F := Ideal) a b (ix2 p q) = a (ix2 p q) + b (ix2 (0 : Fin 1) q) := slab_add_bias a b p q

theorem pay16_apply (b : FVec Ideal S1x512 .f32) (p : Fin 256) (q : Fin 512) :
    k0_pay16 (F := Ideal) b (ix2 p q) = b (ix2 (0 : Fin 1) q) := bias_rows b p q

theorem pay17_apply (fp ip gp c : FVec Ideal S256x512 .f32) (x : S256x512.Idx) :
    k0_pay17 (F := Ideal) fp ip gp c x = cellC (fp x) (ip x) (gp x) (c x) := rfl

theorem pay18_apply (fp ip gp a3 b3 c : FVec Ideal S256x512 .f32) (x : S256x512.Idx) :
    k0_pay18 (F := Ideal) fp ip gp a3 b3 c x = cellH (a3 x + b3 x) (k0_pay17 (F := Ideal) fp ip gp c x) := rfl

/-! ### Chunk 3: three pre-activations first, the fourth inside the hidden state's value -/

theorem pay19_apply (a : FVec Ideal S256x512 .f32) (b : FVec Ideal S1x512 .f32) (p : Fin 256) (q : Fin 512) :
    k0_pay19 (F := Ideal) a b (ix2 p q) = a (ix2 p q) + b (ix2 (0 : Fin 1) q) := slab_add_bias a b p q

theorem pay20_apply (a : FVec Ideal S256x512 .f32) (b : FVec Ideal S1x512 .f32) (p : Fin 256) (q : Fin 512) :
    k0_pay20 (F := Ideal) a b (ix2 p q) = a (ix2 p q) + b (ix2 (0 : Fin 1) q) := slab_add_bias a b p q

theorem pay21_apply (a : FVec Ideal S256x512 .f32) (b : FVec Ideal S1x512 .f32) (p : Fin 256) (q : Fin 512) :
    k0_pay21 (F := Ideal) a b (ix2 p q) = a (ix2 p q) + b (ix2 (0 : Fin 1) q) := slab_add_bias a b p q

theorem pay3_apply (fp ip gp c : FVec Ideal S256x512 .f32) (x : S256x512.Idx) :
    k0_pay3 (F := Ideal) fp ip gp c x = cellC (fp x) (ip x) (gp x) (c x) := rfl

theorem pay4_apply (fp ip gp a3 : FVec Ideal S256x512 .f32) (b3 : FVec Ideal S1x512 .f32) (c : FVec Ideal S256x512 .f32)
    (p : Fin 256) (q : Fin 512) :
    k0_pay4 (F := Ideal) fp ip gp a3 b3 c (ix2 p q) = cellH (a3 (ix2 p q) + b3 (ix2 (0 : Fin 1) q)) (k0_pay3 (F := Ideal) fp ip gp c (ix2 p q)) := by
  rw [← slab_add_bias a3 b3]; rfl

end Cert.KernelIdeal.CellPayloads

end
-- ==== Proof.RowBlock.lean ====
/-
  One row block's two results as functions of the block's accumulated pre-activations, summed bias row and old cell state.

  After the last reduction step a [256, 8192] accumulator holds, for 256 rows, the products' part of every gate column;
  the summed bias is a [1, 8192] row and the old cell state a [256, 2048] block. The new cell state of the block at
  (p, q) is the cell formula of the three pre-activations in gate columns q, 2048 + q and 4096 + q and of the old state
  at (p, q); the new hidden state uses the fourth, in column 6144 + q. A column chunk reads the accumulator and the bias
  through slabs of 512 columns; an entry of such a slab is an entry of the array it was cut from.
-/
import proofs.«111230_j73048803770861_2_alg».proof.KernelIdeal
import proofs.«111230_j73048803770861_2_alg».proof.Proof.LstmCell
import Idealize.ShloMosaic.Lib.Pipeline.Value
import Idealize.ShloMosaic.Lib.ValueIdx

noncomputable section

namespace Cert.KernelIdeal.RowBlock

open Idealize.ShloMosaic Idealize.ShloMosaic.ValueIdx Cert.KernelIdeal Cert.LstmCell

/-- The pre-activation of the block's row p in gate column f: the accumulated products plus the summed bias. -/
def gateAt (acc : FVec Ideal S256x8192 .f32) (b : FVec Ideal S1x8192 .f32) (p : Fin 256) (f : Fin 8192) : EReal :=
  acc (ix2 p f) + b (ix2 (0 : Fin 1) f)

/-- The row of an entry of a [256, 2048] block. -/
def brow (y : S256x2048.Idx) : Fin 256 := ⟨(y 0).val, idx2_lt0 y⟩
/-- The hidden column of an entry of a [256, 2048] block. -/
def bcol (y : S256x2048.Idx) : Fin 2048 := ⟨(y 1).val, idx2_lt1 y⟩

/-- The block's new cell state. -/
def blockC (acc : FVec Ideal S256x8192 .f32) (b : FVec Ideal S1x8192 .f32) (c : FVec Ideal S256x2048 .f32) :
    FVec Ideal S256x2048 .f32 := fun y =>
  cellC (gateAt acc b (brow y) (col 0 (bcol y))) (gateAt acc b (brow y) (col 1 (bcol y)))
    (gateAt acc b (brow y) (col 2 (bcol y))) (c y)

/-- The block's new hidden state. -/
def blockH (acc : FVec Ideal S256x8192 .f32) (b : FVec Ideal S1x8192 .f32) (c : FVec Ideal S256x2048 .f32) :
    FVec Ideal S256x2048 .f32 := fun y =>
  cellH (gateAt acc b (brow y) (col 3 (bcol y))) (blockC acc b c y)

theorem col_val (g : Fin 4) (q : Fin 2048) : (col g q).val = 2048 * g.val + q.val := rfl

/-- The 512 columns of the accumulator from column o on. -/
abbrev slabA (acc : FVec Ideal S256x8192 .f32) (o : ℕ)
    (h : ∀ a, (![0, o] : Fin 2 → ℕ) a + S256x512.size a ≤ S256x8192.size a) : FVec Ideal S256x512 .f32 :=
  View.ld (Val := Elt Ideal) (e' := .f32) acc (Rect.unit (s := S256x8192) ![0, o] S256x512.size h)

/-- The 512 columns of the bias row from column o on. -/
abbrev slabB (b : FVec Ideal S1x8192 .f32) (o : ℕ)
    (h : ∀ a, (![0, o] : Fin 2 → ℕ) a + S1x512.size a ≤ S1x8192.size a) : FVec Ideal S1x512 .f32 :=
  View.ld (Val := Elt Ideal) (e' := .f32) b (Rect.unit (s := S1x8192) ![0, o] S1x512.size h)

/-- The rectangle of the chunk at hidden-column offset oc inside a [256, 2048] block. -/
abbrev chunkRect (oc : ℕ) (hc : ∀ a, (![0, oc] : Fin 2 → ℕ) a + (![256, 512] : Fin 2 → ℕ) a ≤ S256x2048.size a) :
    Rect S256x2048 := Rect.unit (s := S256x2048) ![0, oc] ![256, 512] hc

/-- The chunk of the old cell state at hidden-column offset oc. -/
abbrev slabC (c : FVec Ideal S256x2048 .f32) (oc : ℕ)
    (hc : ∀ a, (![0, oc] : Fin 2 → ℕ) a + (![256, 512] : Fin 2 → ℕ) a ≤ S256x2048.size a) : FVec Ideal S256x512 .f32 :=
  View.ld (Val := Elt Ideal) (e' := .f32) c (chunkRect oc hc)

/-- An entry of a 512-column slab of the accumulator plus the same entry of the bias slab is the pre-activation of the
    column the slab entry was cut from. -/
theorem slab_gate (acc : FVec Ideal S256x8192 .f32) (b : FVec Ideal S1x8192 .f32) (o : ℕ)
    (h1 : ∀ a, (![0, o] : Fin 2 → ℕ) a + S256x512.size a ≤ S256x8192.size a)
    (h2 : ∀ a, (![0, o] : Fin 2 → ℕ) a + S1x512.size a ≤ S1x8192.size a)
    (p : Fin 256) (q : Fin 512) (p' : Fin 256) (f : Fin 8192) (hp : p'.val = p.val) (hf : f.val = o + q.val) :
    slabA acc o h1 (ix2 p q)
        + slabB b o h2 (ix2 (0 : Fin 1) q)
      = gateAt acc b p' f := by
  unfold gateAt slabA slabB View.ld
  congr 1
  · refine congrArg acc (funext fun a => Fin.ext ?_)
    match a with
    | ⟨0, _⟩ => show 0 + 1 * p.val = p'.val; omega
    | ⟨1, _⟩ => show o + 1 * q.val = f.val; omega
  · refine congrArg b (funext fun a => Fin.ext ?_)
    match a with
    | ⟨0, _⟩ => show 0 + 1 * 0 = 0; rfl
    | ⟨1, _⟩ => show o + 1 * q.val = f.val; omega

/-- The cell formula of three slab entries and the old state's slab entry, for the chunk at hidden-column offset oc, is the
    block's new cell state at the entry the chunk's entry was cut from. -/
theorem cell_entry (acc : FVec Ideal S256x8192 .f32) (b : FVec Ideal S1x8192 .f32) (c : FVec Ideal S256x2048 .f32)
    (oc o0 o1 o2 : ℕ)
    (hc : ∀ a, (![0, oc] : Fin 2 → ℕ) a + (![256, 512] : Fin 2 → ℕ) a ≤ S256x2048.size a)
    (h0 : ∀ a, (![0, o0] : Fin 2 → ℕ) a + S256x512.size a ≤ S256x8192.size a)
    (h0' : ∀ a, (![0, o0] : Fin 2 → ℕ) a + S1x512.size a ≤ S1x8192.size a)
    (h1 : ∀ a, (![0, o1] : Fin 2 → ℕ) a + S256x512.size a ≤ S256x8192.size a)
    (h1' : ∀ a, (![0, o1] : Fin 2 → ℕ) a + S1x512.size a ≤ S1x8192.size a)
    (h2 : ∀ a, (![0, o2] : Fin 2 → ℕ) a + S256x512.size a ≤ S256x8192.size a)
    (h2' : ∀ a, (![0, o2] : Fin 2 → ℕ) a + S1x512.size a ≤ S1x8192.size a)
    (p : Fin 256) (q : Fin 512) (e0 : o0 = oc) (e1 : o1 = 2048 + oc) (e2 : o2 = 4096 + oc) :
    cellC
        (slabA acc o0 h0 (ix2 p q) + slabB b o0 h0' (ix2 (0 : Fin 1) q))
        (slabA acc o1 h1 (ix2 p q) + slabB b o1 h1' (ix2 (0 : Fin 1) q))
        (slabA acc o2 h2 (ix2 p q) + slabB b o2 h2' (ix2 (0 : Fin 1) q))
        (slabC c oc hc (ix2 p q))
      = blockC acc b c ((chunkRect oc hc).emb (ix2 p q)) := by
  unfold blockC
  have hy0 : (((chunkRect oc hc).emb (ix2 p q)) 0).val = p.val := by
    show 0 + 1 * p.val = p.val; omega
  have hy1 : (((chunkRect oc hc).emb (ix2 p q)) 1).val = oc + q.val := by
    show oc + 1 * q.val = oc + q.val; omega
  rw [slab_gate acc b o0 h0 h0' p q (brow ((chunkRect oc hc).emb (ix2 p q))) (col 0 (bcol ((chunkRect oc hc).emb (ix2 p q)))) hy0
      (by show 2048 * 0 + (((chunkRect oc hc).emb (ix2 p q)) 1).val = o0 + q.val; rw [hy1, e0]; omega),
    slab_gate acc b o1 h1 h1' p q (brow ((chunkRect oc hc).emb (ix2 p q))) (col 1 (bcol ((chunkRect oc hc).emb (ix2 p q)))) hy0
      (by show 2048 * 1 + (((chunkRect oc hc).emb (ix2 p q)) 1).val = o1 + q.val; rw [hy1, e1]; omega),
    slab_gate acc b o2 h2 h2' p q (brow ((chunkRect oc hc).emb (ix2 p q))) (col 2 (bcol ((chunkRect oc hc).emb (ix2 p q)))) hy0
      (by show 2048 * 2 + (((chunkRect oc hc).emb (ix2 p q)) 1).val = o2 + q.val; rw [hy1, e2]; omega)]
  rfl

/-- The hidden-state formula of the fourth slab entry and the new cell state, likewise. -/
theorem hidden_entry (acc : FVec Ideal S256x8192 .f32) (b : FVec Ideal S1x8192 .f32) (c : FVec Ideal S256x2048 .f32)
    (oc o3 : ℕ) (cn : EReal)
    (hc : ∀ a, (![0, oc] : Fin 2 → ℕ) a + (![256, 512] : Fin 2 → ℕ) a ≤ S256x2048.size a)
    (h3 : ∀ a, (![0, o3] : Fin 2 → ℕ) a + S256x512.size a ≤ S256x8192.size a)
    (h3' : ∀ a, (![0, o3] : Fin 2 → ℕ) a + S1x512.size a ≤ S1x8192.size a)
    (p : Fin 256) (q : Fin 512) (e3 : o3 = 6144 + oc)
    (hcn : cn = blockC acc b c ((chunkRect oc hc).emb (ix2 p q))) :
    cellH
        (slabA acc o3 h3 (ix2 p q) + slabB b o3 h3' (ix2 (0 : Fin 1) q))
        cn
      = blockH acc b c ((chunkRect oc hc).emb (ix2 p q)) := by
  unfold blockH
  have hy0 : (((chunkRect oc hc).emb (ix2 p q)) 0).val = p.val := by
    show 0 + 1 * p.val = p.val; omega
  have hy1 : (((chunkRect oc hc).emb (ix2 p q)) 1).val = oc + q.val := by
    show oc + 1 * q.val = oc + q.val; omega
  rw [slab_gate acc b o3 h3 h3' p q (brow ((chunkRect oc hc).emb (ix2 p q))) (col 3 (bcol ((chunkRect oc hc).emb (ix2 p q)))) hy0
      (by show 2048 * 3 + (((chunkRect oc hc).emb (ix2 p q)) 1).val = o3 + q.val; rw [hy1, e3]; omega), hcn]

end Cert.KernelIdeal.RowBlock

end
-- ==== Proof.LibSlabAfterFill.lean ====
/-
  A load through any rectangle of a buffer that one store has just filled whole.

  When the last thing written to a buffer is one store covering all of it, a later load through any rectangle of the
  buffer — a slab of rows, of columns, a single tile — reads the stored array through that rectangle: entry x of the
  loaded value is the stored array at the place the rectangle puts x. Nothing of the buffer's earlier contents is left
  to read, so the load does not depend on them.
-/
import Idealize.ShloMosaic.Lib.Pipeline.Value

noncomputable section

namespace Cert.LibSlabAfterFill

open Idealize.ShloMosaic

/-- A load through the rectangle r, after one store of w that covered the whole buffer (the whole-shape rectangle at
    offsets that are all zero, however the zeros are spelt), reads w through r. -/
theorem readCov_whole {Val : EltTy → Type} [∀ e, Nonempty (Val e)] {sig : RefSig} {κ : Kind} {sp : Space} {S : Shape}
    {e : EltTy} (v : View sig κ sp S e) {off : Fin S.rank → ℕ} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

end Cert.LibSlabAfterFill

end
-- ==== Proof.Pieces.lean ====
/-
  What each of the three control cases of the kernel's body leaves behind, as values.

  Away from the first and last reduction steps the body adds the step's two matrix products to the accumulator (one
  store of the whole accumulator). At the first step it first stores zeros and reads them back. At the last step it
  accumulates in the same way and then stores the two result blocks in four column chunks each, every chunk computed from
  slabs of the accumulator it has just stored, of the bias row and of the old cell state. Read back, the accumulator is
  the step's sum, and the two result blocks are the cell formulas of the accumulator, the bias row and the old state.
-/
import proofs.«111230_j73048803770861_2_alg».proof.Proof.Gen.KernelIdeal.Frame
import proofs.«111230_j73048803770861_2_alg».proof.Proof.CellPayloads
import proofs.«111230_j73048803770861_2_alg».proof.Proof.RowBlock
import proofs.«111230_j73048803770861_2_alg».proof.Proof.LibSlabAfterFill
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.CellPayloads Cert.KernelIdeal.RowBlock Idealize.ShloMosaic.ValueIdx
open Cert.LibSlabAfterFill

variable {F : FTy → Type} [FloatOps F]

theorem hz : (![0, 0] : Fin 2 → Nat) = fun _ => 0 := funext fun a => by fin_cases a <;> rfl

/-- An accumulating step leaves the old accumulator plus the step's two products. -/
theorem scratch_B (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x2048 .f32) (harg4 : arg4.IsWhole) (arg5 : Memref sig .tc .vmem S128x8192 .bf16) (harg5 : arg5.IsWhole) (arg6 : Memref sig .tc .vmem S128x8192 .bf16) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : ¬cond0_0 i) (hc1 : ¬cond0_1 i) (x0 : Vec F S256x128 .f32) (x1 : Vec F S256x128 .f32) (x2 : Vec F S256x2048 .f32) (x3 : Vec F S128x8192 .bf16) (x4 : Vec F S128x8192 .bf16) (x5 : Vec F S1x8192 .f32) (xs0 : Vec F S256x8192 .f32) :
    sout0_B_0 c i arg2 harg2 arg3 harg3 arg4 harg4 arg5 harg5 arg6 harg6 arg7 harg7 arg8 harg8 arg9 harg9 arg10 harg10 hc0 hc1 x0 x1 x2 x3 x4 x5 xs0 = k0_pay2 x0 x1 xs0 x3 x4 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  rw [View.canon_unit_zero hz]
  simp only [View.readAt_eq_ld, harg2.read_unread, harg3.read_unread, harg10.read_unread, harg5.read_unread, harg6.read_unread,
    View.ld_unit_zero (S := S256x128) hz, View.ld_unit_zero (S := S256x8192) hz, View.ld_unit_zero (S := S128x8192) hz]

/-- The first step leaves zero plus the step's two products. -/
theorem scratch_A (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x2048 .f32) (harg4 : arg4.IsWhole) (arg5 : Memref sig .tc .vmem S128x8192 .bf16) (harg5 : arg5.IsWhole) (arg6 : Memref sig .tc .vmem S128x8192 .bf16) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : cond0_0 i) (hc1 : ¬cond0_1 i) (x0 : Vec F S256x128 .f32) (x1 : Vec F S256x128 .f32) (x2 : Vec F S256x2048 .f32) (x3 : Vec F S128x8192 .bf16) (x4 : Vec F S128x8192 .bf16) (x5 : Vec F S1x8192 .f32) :
    sout0_A_0 c i arg2 harg2 arg3 harg3 arg4 harg4 arg5 harg5 arg6 harg6 arg7 harg7 arg8 harg8 arg9 harg9 arg10 harg10 hc0 hc1 x0 x1 x2 x3 x4 x5 = k0_pay2 x0 x1 k0_pay1 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S256x8192) hz, View.readCov_unit_zero (S := S256x8192) _ hz]
  simp only [View.readAt_eq_ld, harg2.read_unread, harg3.read_unread, harg5.read_unread, harg6.read_unread,
    View.ld_unit_zero (S := S256x128) hz, View.ld_unit_zero (S := S128x8192) hz]

/-- The last step leaves the same sum in the accumulator. -/
theorem scratch_C (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x2048 .f32) (harg4 : arg4.IsWhole) (arg5 : Memref sig .tc .vmem S128x8192 .bf16) (harg5 : arg5.IsWhole) (arg6 : Memref sig .tc .vmem S128x8192 .bf16) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : ¬cond0_0 i) (hc1 : cond0_1 i) (x0 : Vec F S256x128 .f32) (x1 : Vec F S256x128 .f32) (x2 : Vec F S256x2048 .f32) (x3 : Vec F S128x8192 .bf16) (x4 : Vec F S128x8192 .bf16) (x5 : Vec F S1x8192 .f32) (xs0 : Vec F S256x8192 .f32) :
    sout0_C_0 c i arg2 harg2 arg3 harg3 arg4 harg4 arg5 harg5 arg6 harg6 arg7 harg7 arg8 harg8 arg9 harg9 arg10 harg10 hc0 hc1 x0 x1 x2 x3 x4 x5 xs0 = k0_pay2 x0 x1 xs0 x3 x4 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg10.read_unread, harg5.read_unread, harg6.read_unread,
    View.ld_unit_zero (S := S256x128) hz, View.ld_unit_zero (S := S256x8192) hz, View.ld_unit_zero (S := S128x8192) hz]

/-- The last step leaves the block's new cell state in the second result's buffer: each of the four chunks it stores is
    the cell formula of the slabs it loaded, and the chunks tile the block. -/
theorem out7_C (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x2048 .f32) (harg4 : arg4.IsWhole) (arg5 : Memref sig .tc .vmem S128x8192 .bf16) (harg5 : arg5.IsWhole) (arg6 : Memref sig .tc .vmem S128x8192 .bf16) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : ¬cond0_0 i) (hc1 : cond0_1 i) (x0 : Vec Ideal S256x128 .f32) (x1 : Vec Ideal S256x128 .f32) (x2 : Vec Ideal S256x2048 .f32) (x3 : Vec Ideal S128x8192 .bf16) (x4 : Vec Ideal S128x8192 .bf16) (x5 : Vec Ideal S1x8192 .f32) (xs0 : Vec Ideal S256x8192 .f32) :
    out0_C_7 (F := Ideal) c i arg2 harg2 arg3 harg3 arg4 harg4 arg5 harg5 arg6 harg6 arg7 harg7 arg8 harg8 arg9 harg9 arg10 harg10 hc0 hc1 x0 x1 x2 x3 x4 x5 xs0
      = blockC (k0_pay2 (F := Ideal) x0 x1 xs0 x3 x4) x5 x2 := by
  funext y
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xs0)]
  refine View.canon_apply_of_pieces (blockC (k0_pay2 (F := Ideal) x0 x1 xs0 x3 x4) x5 x2) _ ?_ y
    (cover0_C_7 c i arg2 harg2 arg3 harg3 arg4 harg4 arg5 harg5 arg6 harg6 arg7 harg7 arg8 harg8 arg9 harg9 arg10 harg10 hc0 hc1 x0 x1 x2 x3 x4 x5 xs0 y)
  unfold kernelRun0_C
  dsimp only
  sl_unfold_words
  simp only [readCov_whole (S := S256x8192) _ hz, View.readAt_eq_ld, harg2.read_unread, harg3.read_unread, harg4.read_unread, harg5.read_unread,
    harg6.read_unread, harg7.read_unread, harg10.read_unread, View.ld_unit_zero (S := S256x128) hz,
    View.ld_unit_zero (S := S256x8192) hz, View.ld_unit_zero (S := S128x8192) hz]
  intro pc hpc x
  simp only [List.mem_cons, List.mem_singleton, List.not_mem_nil, or_false] at hpc
  rcases hpc with rfl | rfl | rfl | rfl
  · obtain ⟨p, q, rfl⟩ : ∃ (p : Fin 256) (q : Fin 512), x = ix2 p q := ⟨x 0, x 1, eq_ix2 x⟩
    dsimp only
    rw [pay3_apply, pay19_apply, pay20_apply, pay21_apply]
    exact cell_entry _ x5 x2 1536 1536 3584 5632 _ _ _ _ _ _ _ p q rfl rfl rfl
  · obtain ⟨p, q, rfl⟩ : ∃ (p : Fin 256) (q : Fin 512), x = ix2 p q := ⟨x 0, x 1, eq_ix2 x⟩
    dsimp only
    rw [pay17_apply, pay13_apply, pay14_apply, pay15_apply]
    exact cell_entry _ x5 x2 1024 1024 3072 5120 _ _ _ _ _ _ _ p q rfl rfl rfl
  · obtain ⟨p, q, rfl⟩ : ∃ (p : Fin 256) (q : Fin 512), x = ix2 p q := ⟨x 0, x 1, eq_ix2 x⟩
    dsimp only
    rw [pay11_apply, pay7_apply, pay8_apply, pay9_apply]
    exact cell_entry _ x5 x2 512 512 2560 4608 _ _ _ _ _ _ _ p q rfl rfl rfl
  · obtain ⟨p, q, rfl⟩ : ∃ (p : Fin 256) (q : Fin 512), x = ix2 p q := ⟨x 0, x 1, eq_ix2 x⟩
    dsimp only
    rw [pay5_apply]
    exact cell_entry _ x5 x2 0 0 2048 4096 _ _ _ _ _ _ _ p q rfl rfl rfl

/-- The last step leaves the block's new hidden state in the first result's buffer. -/
theorem out6_C (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x2048 .f32) (harg4 : arg4.IsWhole) (arg5 : Memref sig .tc .vmem S128x8192 .bf16) (harg5 : arg5.IsWhole) (arg6 : Memref sig .tc .vmem S128x8192 .bf16) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : ¬cond0_0 i) (hc1 : cond0_1 i) (x0 : Vec Ideal S256x128 .f32) (x1 : Vec Ideal S256x128 .f32) (x2 : Vec Ideal S256x2048 .f32) (x3 : Vec Ideal S128x8192 .bf16) (x4 : Vec Ideal S128x8192 .bf16) (x5 : Vec Ideal S1x8192 .f32) (xs0 : Vec Ideal S256x8192 .f32) :
    out0_C_6 (F := Ideal) c i arg2 harg2 arg3 harg3 arg4 harg4 arg5 harg5 arg6 harg6 arg7 harg7 arg8 harg8 arg9 harg9 arg10 harg10 hc0 hc1 x0 x1 x2 x3 x4 x5 xs0
      = blockH (k0_pay2 (F := Ideal) x0 x1 xs0 x3 x4) x5 x2 := by
  funext y
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  refine View.canon_apply_of_pieces (blockH (k0_pay2 (F := Ideal) x0 x1 xs0 x3 x4) x5 x2) _ ?_ y
    (cover0_C_6 c i arg2 harg2 arg3 harg3 arg4 harg4 arg5 harg5 arg6 harg6 arg7 harg7 arg8 harg8 arg9 harg9 arg10 harg10 hc0 hc1 x0 x1 x2 x3 x4 x5 xs0 y)
  unfold kernelRun0_C
  dsimp only
  sl_unfold_words
  simp only [readCov_whole (S := S256x8192) _ hz, View.readAt_eq_ld, harg2.read_unread, harg3.read_unread, harg4.read_unread, harg5.read_unread,
    harg6.read_unread, harg7.read_unread, harg10.read_unread, View.ld_unit_zero (S := S256x128) hz,
    View.ld_unit_zero (S := S256x8192) hz, View.ld_unit_zero (S := S128x8192) hz]
  intro pc hpc x
  simp only [List.mem_cons, List.mem_singleton, List.not_mem_nil, or_false] at hpc
  rcases hpc with rfl | rfl | rfl | rfl
  · obtain ⟨p, q, rfl⟩ : ∃ (p : Fin 256) (q : Fin 512), x = ix2 p q := ⟨x 0, x 1, eq_ix2 x⟩
    dsimp only
    rw [pay4_apply, pay3_apply, pay19_apply, pay20_apply, pay21_apply]
    exact hidden_entry _ x5 x2 1536 7680 _ _ _ _ p q rfl (cell_entry _ x5 x2 1536 1536 3584 5632 _ _ _ _ _ _ _ p q rfl rfl rfl)
  · obtain ⟨p, q, rfl⟩ : ∃ (p : Fin 256) (q : Fin 512), x = ix2 p q := ⟨x 0, x 1, eq_ix2 x⟩
    dsimp only
    rw [pay18_apply, pay17_apply, pay13_apply, pay14_apply, pay15_apply, pay16_apply]
    exact hidden_entry _ x5 x2 1024 7168 _ _ _ _ p q rfl (cell_entry _ x5 x2 1024 1024 3072 5120 _ _ _ _ _ _ _ p q rfl rfl rfl)
  · obtain ⟨p, q, rfl⟩ : ∃ (p : Fin 256) (q : Fin 512), x = ix2 p q := ⟨x 0, x 1, eq_ix2 x⟩
    dsimp only
    rw [pay12_apply, pay11_apply, pay7_apply, pay8_apply, pay9_apply, pay10_apply]
    exact hidden_entry _ x5 x2 512 6656 _ _ _ _ p q rfl (cell_entry _ x5 x2 512 512 2560 4608 _ _ _ _ _ _ _ p q rfl rfl rfl)
  · obtain ⟨p, q, rfl⟩ : ∃ (p : Fin 256) (q : Fin 512), x = ix2 p q := ⟨x 0, x 1, eq_ix2 x⟩
    dsimp only
    rw [pay6_apply, pay5_apply]
    exact hidden_entry _ x5 x2 0 6144 _ _ _ _ p q rfl (cell_entry _ x5 x2 0 0 2048 4096 _ _ _ _ _ _ _ p q rfl rfl rfl)

/-- The same two facts with the accumulator named as what the last step leaves in it. -/
theorem out7_C' (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x2048 .f32) (harg4 : arg4.IsWhole) (arg5 : Memref sig .tc .vmem S128x8192 .bf16) (harg5 : arg5.IsWhole) (arg6 : Memref sig .tc .vmem S128x8192 .bf16) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : ¬cond0_0 i) (hc1 : cond0_1 i) (x0 : Vec Ideal S256x128 .f32) (x1 : Vec Ideal S256x128 .f32) (x2 : Vec Ideal S256x2048 .f32) (x3 : Vec Ideal S128x8192 .bf16) (x4 : Vec Ideal S128x8192 .bf16) (x5 : Vec Ideal S1x8192 .f32) (xs0 : Vec Ideal S256x8192 .f32) :
    out0_C_7 (F := Ideal) c i arg2 harg2 arg3 harg3 arg4 harg4 arg5 harg5 arg6 harg6 arg7 harg7 arg8 harg8 arg9 harg9 arg10 harg10 hc0 hc1 x0 x1 x2 x3 x4 x5 xs0
      = blockC (sout0_C_0 (F := Ideal) c i arg2 harg2 arg3 harg3 arg4 harg4 arg5 harg5 arg6 harg6 arg7 harg7 arg8 harg8 arg9 harg9 arg10 harg10 hc0 hc1 x0 x1 x2 x3 x4 x5 xs0) x5 x2 := by
  rw [scratch_C]
  exact out7_C c i arg2 harg2 arg3 harg3 arg4 harg4 arg5 harg5 arg6 harg6 arg7 harg7 arg8 harg8 arg9 harg9 arg10 harg10 hc0 hc1 x0 x1 x2 x3 x4 x5 xs0

theorem out6_C' (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x2048 .f32) (harg4 : arg4.IsWhole) (arg5 : Memref sig .tc .vmem S128x8192 .bf16) (harg5 : arg5.IsWhole) (arg6 : Memref sig .tc .vmem S128x8192 .bf16) (harg6 : arg6.IsWhole) (arg7 : Memref sig .tc .vmem S1x8192 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : ¬cond0_0 i) (hc1 : cond0_1 i) (x0 : Vec Ideal S256x128 .f32) (x1 : Vec Ideal S256x128 .f32) (x2 : Vec Ideal S256x2048 .f32) (x3 : Vec Ideal S128x8192 .bf16) (x4 : Vec Ideal S128x8192 .bf16) (x5 : Vec Ideal S1x8192 .f32) (xs0 : Vec Ideal S256x8192 .f32) :
    out0_C_6 (F := Ideal) c i arg2 harg2 arg3 harg3 arg4 harg4 arg5 harg5 arg6 harg6 arg7 harg7 arg8 harg8 arg9 harg9 arg10 harg10 hc0 hc1 x0 x1 x2 x3 x4 x5 xs0
      = blockH (sout0_C_0 (F := Ideal) c i arg2 harg2 arg3 harg3 arg4 harg4 arg5 harg5 arg6 harg6 arg7 harg7 arg8 harg8 arg9 harg9 arg10 harg10 hc0 hc1 x0 x1 x2 x3 x4 x5 xs0) x5 x2 := by
  rw [scratch_C]
  exact out6_C c i arg2 harg2 arg3 harg3 arg4 harg4 arg5 harg5 arg6 harg6 arg7 harg7 arg8 harg8 arg9 harg9 arg10 harg10 hc0 hc1 x0 x1 x2 x3 x4 x5 xs0

end Cert.KernelIdeal.Pieces

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.StepSum.lean ====
/-
  One reduction step's contribution to the accumulator, read at an entry.

  A step multiplies a [256, 128] block of x by a [128, 8192] block of W_i and a [256, 128] block of h by a [128, 8192]
  block of W_h, both products accumulated from zero, adds the two products, and adds the result to the accumulator.
  At entry (p, f) that is the old entry plus the two inner products over the step's 128 positions. The changes of
  number format on the way to the matrix unit are the identity on the extended reals.
-/
import proofs.«111230_j73048803770861_2_alg».proof.Proof.Gen.KernelIdeal.Skeleton
import proofs.«111230_j73048803770861_2_alg».proof.Proof.LibInnerProducts
import Idealize.ShloMosaic.Lib.Pipeline.Value
import Idealize.ShloMosaic.Lib.ValueIdx
import Idealize.ShloMosaic.PureOps.Ideal.Laws

noncomputable section

namespace Cert.KernelIdeal.StepSum

open Idealize.ShloMosaic Idealize.ShloMosaic.ValueIdx Cert.KernelIdeal Cert.KernelIdeal.Gen
open scoped BigOperators

/-- The kernel's dimension numbers are the plain ones: contract the left factor's columns with the right factor's rows. -/
theorem dims_plain : dot_S256x128_S128x8192_S256x8192_1_0_0_1_n_n = DotDims.plain 256 128 8192 := rfl

/-- The value stored at the first step before accumulating is zero everywhere. -/
theorem pay1_apply (i : S256x8192.Idx) : k0_pay1 (F := Ideal) i = 0 := by
  unfold k0_pay1
  rw [shapeCast_self]
  exact Ideal.ofBits_zero_f32

/-- The accumulator after a step, at entry (p, f): the old entry plus the step's two inner products. -/
theorem pay2_apply (x0 x1 : FVec Ideal S256x128 .f32) (acc : FVec Ideal S256x8192 .f32)
    (w0 w1 : FVec Ideal S128x8192 .bf16) (p : Fin 256) (f : Fin 8192) :
    k0_pay2 (F := Ideal) x0 x1 acc w0 w1 (ix2 p f)
      = acc (ix2 p f) + ((∑ d : Fin 128, x0 (ix2 p d) * w0 (ix2 d f)) + ∑ d : Fin 128, x1 (ix2 p d) * w1 (ix2 d f)) := by
  unfold k0_pay2
  simp only [shapeCast_self]
  rw [addf_apply, addf_apply,
    Idealize.ShloMosaic.InnerProducts.matmul_zero_apply dot_S256x128_S128x8192_S256x8192_1_0_0_1_n_n dims_plain,
    Idealize.ShloMosaic.InnerProducts.matmul_zero_apply dot_S256x128_S128x8192_S256x8192_1_0_0_1_n_n dims_plain]
  rfl

end Cert.KernelIdeal.StepSum

end
-- ==== Proof.Blocks.lean ====
/-
  The blocks the kernel's body is handed at a grid point, as entries of the program's arguments.

  The 512 grid points are the 32 row blocks times the 16 reduction steps: point t works on row block t / 16 at step
  t % 16. There it is handed rows 256·(t/16) … of x and h restricted to positions 128·(t%16) … (two [256, 128] blocks),
  the same rows of the old cell state (a [256, 2048] block), rows 128·(t%16) … of the two weight matrices (two
  [128, 8192] blocks) and the whole summed bias row. The weight matrices reach the kernel through a change of number
  format and the bias through a sum and a reshape done before the launch; on the extended reals the first is the
  identity, so a weight block's entry is the argument's entry, and the bias row's entry f is b_i(f) + b_h(f).
-/
import proofs.«111230_j73048803770861_2_alg».proof.Proof.Gen.KernelIdeal.Frame
import proofs.«111230_j73048803770861_2_alg».proof.Proof.LstmCell
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.LstmCell

/-- The row block a grid point works on. -/
def rblk (t : Fin cfg0.N) : Fin 32 := ⟨t.val / 16, by have h1 := t.isLt; have h2 : cfg0.N = 512 := N_0; omega⟩

/-- The reduction step a grid point is at. -/
def kstep (t : Fin cfg0.N) : Fin 16 := ⟨t.val % 16, Nat.mod_lt _ (by decide)⟩

/-- The printed index maps over the grid: which block of each operand a point is handed. -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 2) = t.val % 16 ∧ win0_4.index t (1 : Fin 2) = 0
    ∧ win0_5.index t (0 : Fin 2) = 0 ∧ win0_5.index t (1 : Fin 2) = 0
    ∧ win0_6.index t (0 : Fin 2) = t.val / 16 ∧ win0_6.index t (1 : Fin 2) = 0
    ∧ win0_7.index t (0 : Fin 2) = t.val / 16 ∧ win0_7.index t (1 : Fin 2) = 0 :=
  (by decide +kernel : ∀ t : Fin grid0.N, _)

variable (m : (ℓ : Loc nD τ sig) → Buf (Elt Ideal) ℓ)

/-- The weight matrix W_i as the kernel finds it: the argument, its number format changed. -/
theorem V_wi (c : Dev nD) : (V m c main_v0 : S2048x8192.Idx → EReal)
    = truncf (F := Ideal) .bf16 (m ((c : Thread nD τ).loc main_arg3)) bitsLt_bf16_f32 := by
  dsimp only [Gen.V, Gen.hostOps0]; after_results

/-- The weight matrix W_h as the kernel finds it. -/
theorem V_wh (c : Dev nD) : (V m c main_v1 : S2048x8192.Idx → EReal)
    = truncf (F := Ideal) .bf16 (m ((c : Thread nD τ).loc main_arg5)) bitsLt_bf16_f32 := by
  dsimp only [Gen.V, Gen.hostOps0]; after_results

/-- The bias row as the kernel finds it: the two bias vectors added, laid out as one row. -/
theorem V_bias (c : Dev nD) : (V m c main_v3 : S1x8192.Idx → EReal)
    = shapeCast S1x8192 (addf (F := Ideal) (φ := .f32) (m ((c : Thread nD τ).loc main_arg4)) (m ((c : Thread nD τ).loc main_arg6)))
        shapeCasts_S8192_S1x8192 := by
  dsimp only [Gen.V, Gen.hostOps0]; after_results; rfl

/-- The block of x at point t: rows of row block t / 16, positions of step t % 16. -/
theorem iblk0_apply (c : Dev nD) (t : Fin cfg0.N) (p : Fin 256) (d : Fin 128) :
    (iblk m c 0 t : Vec Ideal S256x128 .f32) (ix2 p d)
      = m ((c : Thread nD τ).loc main_arg0) (ix2 (grow (rblk t) p) (kpos (kstep t) d)) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 256 + 1 * p.val = 256 * (t.val / 16) + p.val; rw [e0]; omega
  | ⟨1, _⟩ => show win0_0.index t (1 : Fin 2) * 128 + 1 * d.val = 128 * (t.val % 16) + d.val; rw [e1]; omega

/-- The block of h at point t. -/
theorem iblk1_apply (c : Dev nD) (t : Fin cfg0.N) (p : Fin 256) (d : Fin 128) :
    (iblk m c 1 t : Vec Ideal S256x128 .f32) (ix2 p d)
      = m ((c : Thread nD τ).loc main_arg1) (ix2 (grow (rblk t) p) (kpos (kstep t) d)) := by
  obtain ⟨-, -, e0, e1, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 256 + 1 * p.val = 256 * (t.val / 16) + p.val; rw [e0]; omega
  | ⟨1, _⟩ => show win0_1.index t (1 : Fin 2) * 128 + 1 * d.val = 128 * (t.val % 16) + d.val; rw [e1]; omega

/-- The block of the old cell state at point t: the rows of row block t / 16, all columns. -/
theorem iblk2_apply (c : Dev nD) (t : Fin cfg0.N) (p : Fin 256) (q : Fin 2048) :
    (iblk m c 2 t : Vec Ideal S256x2048 .f32) (ix2 p q)
      = m ((c : Thread nD τ).loc main_arg2) (ix2 (grow (rblk t) p) q) := by
  obtain ⟨-, -, -, -, e0, e1, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 256 + 1 * p.val = 256 * (t.val / 16) + p.val; rw [e0]; omega
  | ⟨1, _⟩ => show win0_2.index t (1 : Fin 2) * 2048 + 1 * q.val = q.val; rw [e1]; omega

/-- The same at any entry y of the block, against any entry i of the argument with the matching coordinates. -/
theorem iblk2_at (c : Dev nD) (t : Fin cfg0.N) (y : S256x2048.Idx) (i : S8192x2048.Idx)
    (h0 : (i 0).val = 256 * (t.val / 16) + (y 0).val) (h1 : (i 1).val = (y 1).val) :
    (iblk m c 2 t : Vec Ideal S256x2048 .f32) y = m ((c : Thread nD τ).loc main_arg2) i := by
  obtain ⟨-, -, -, -, e0, e1, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 256 + 1 * (y 0).val = (i 0).val; rw [e0, h0]; omega
  | ⟨1, _⟩ => show win0_2.index t (1 : Fin 2) * 2048 + 1 * (y 1).val = (i 1).val; rw [e1, h1]; omega

/-- The block of W_i at point t: the rows at the positions of step t % 16, all gate columns. -/
theorem iblk3_apply (c : Dev nD) (t : Fin cfg0.N) (d : Fin 128) (f : Fin 8192) :
    (iblk m c 3 t : Vec Ideal S128x8192 .bf16) (ix2 d f)
      = m ((c : Thread nD τ).loc main_arg3) (ix2 (kpos (kstep t) d) f) := by
  obtain ⟨-, -, -, -, -, -, e0, e1, -⟩ := idx_facts t
  unfold iblk
  rw [View.read_apply]
  show (V m c main_v0 : S2048x8192.Idx → EReal) _ = _
  rw [V_wi, truncf_apply]
  refine congrArg (m ((c : Thread nD τ).loc main_arg3)) (funext fun a => Fin.ext ?_)
  match a with
  | ⟨0, _⟩ => show win0_3.index t (0 : Fin 2) * 128 + 1 * d.val = 128 * (t.val % 16) + d.val; rw [e0]; omega
  | ⟨1, _⟩ => show win0_3.index t (1 : Fin 2) * 8192 + 1 * f.val = f.val; rw [e1]; omega

/-- The block of W_h at point t. -/
theorem iblk4_apply (c : Dev nD) (t : Fin cfg0.N) (d : Fin 128) (f : Fin 8192) :
    (iblk m c 4 t : Vec Ideal S128x8192 .bf16) (ix2 d f)
      = m ((c : Thread nD τ).loc main_arg5) (ix2 (kpos (kstep t) d) f) := by
  obtain ⟨-, -, -, -, -, -, -, -, e0, e1, -⟩ := idx_facts t
  unfold iblk
  rw [View.read_apply]
  show (V m c main_v1 : S2048x8192.Idx → EReal) _ = _
  rw [V_wh, truncf_apply]
  refine congrArg (m ((c : Thread nD τ).loc main_arg5)) (funext fun a => Fin.ext ?_)
  match a with
  | ⟨0, _⟩ => show win0_4.index t (0 : Fin 2) * 128 + 1 * d.val = 128 * (t.val % 16) + d.val; rw [e0]; omega
  | ⟨1, _⟩ => show win0_4.index t (1 : Fin 2) * 8192 + 1 * f.val = f.val; rw [e1]; omega

/-- The bias row at any point: entry f is b_i(f) + b_h(f). -/
theorem iblk5_apply (c : Dev nD) (t : Fin cfg0.N) (f : Fin 8192) :
    (iblk m c 5 t : Vec Ideal S1x8192 .f32) (ix2 (0 : Fin 1) f)
      = addf (F := Ideal) (φ := .f32) (m ((c : Thread nD τ).loc main_arg4)) (m ((c : Thread nD τ).loc main_arg6)) (ix1 f) := by
  obtain ⟨-, -, -, -, -, -, -, -, -, -, e0, e1, -⟩ := idx_facts t
  unfold iblk
  rw [View.read_apply]
  show (V m c main_v3 : S1x8192.Idx → EReal) _ = _
  rw [V_bias]
  have hj : (((cfg0.win 5).blk t).view.emb (ix2 (0 : Fin 1) f) : S1x8192.Idx) = ix2 (0 : Fin 1) f :=
    funext fun a => Fin.ext (by
      match a with
      | ⟨0, _⟩ => show win0_5.index t (0 : Fin 2) * 1 + 1 * 0 = 0; rw [e0]
      | ⟨1, _⟩ => show win0_5.index t (1 : Fin 2) * 8192 + 1 * f.val = f.val; rw [e1]; omega)
  refine (congrArg (shapeCast S1x8192 (addf (F := Ideal) (φ := .f32) (m ((c : Thread nD τ).loc main_arg4))
    (m ((c : Thread nD τ).loc main_arg6))) shapeCasts_S8192_S1x8192) hj).trans ?_
  exact shapeCast_a_1a_apply _ _ (0 : Fin 1) f

end Cert.KernelIdeal.Blocks

end
-- ==== Proof.Accumulator.lean ====
/-
  The accumulator after every grid point, as a sum of the reduction steps done so far for its row block.

  The body resets the accumulator at step 0 of a row block and adds one step's two inner products at every step. So
  after point t it holds, at entry (p, f), zero plus the sum over the steps 0 … t % 16 of that row block of the step's
  part of the two inner products of row 256·(t/16) + p with gate column f.
-/
import proofs.«111230_j73048803770861_2_alg».proof.Proof.Gen.KernelIdeal.Value
import proofs.«111230_j73048803770861_2_alg».proof.Proof.Pieces
import proofs.«111230_j73048803770861_2_alg».proof.Proof.StepSum
import proofs.«111230_j73048803770861_2_alg».proof.Proof.Blocks

noncomputable section

open Idealize.ShloMosaic Idealize.ShloMosaic.TcCoe Idealize.SL.Sem
open Idealize.ShloMosaic.Pipeline (Dat)

namespace Cert.KernelIdeal.Accumulator

open Cert.KernelIdeal Cert.KernelIdeal.Gen Idealize.ShloMosaic.ValueIdx Cert.LstmCell Cert.KernelIdeal.Blocks
open Cert.KernelIdeal.Pieces Cert.KernelIdeal.StepSum
open scoped BigOperators

variable (m : (ℓ : Loc nD τ sig) → Buf (Elt Ideal) ℓ)

/-- The blocks of x, h, W_i and W_h a point is handed, as arrays of extended reals. -/
abbrev blkX (c : Dev nD) (t : Fin cfg0.N) : FVec Ideal S256x128 .f32 := iblk m c 0 t
abbrev blkH (c : Dev nD) (t : Fin cfg0.N) : FVec Ideal S256x128 .f32 := iblk m c 1 t
abbrev blkWi (c : Dev nD) (t : Fin cfg0.N) : FVec Ideal S128x8192 .bf16 := iblk m c 3 t
abbrev blkWh (c : Dev nD) (t : Fin cfg0.N) : FVec Ideal S128x8192 .bf16 := iblk m c 4 t

/-- The two inner products a point's body computes are the step's part of the pre-activation's two inner products. -/
theorem step_eq (c : Dev nD) (t : Fin cfg0.N) (p : Fin 256) (f : Fin 8192) :
    (∑ d : Fin 128, blkX m c t (ix2 p d) * blkWi m c t (ix2 d f))
      + (∑ d : Fin 128, blkH m c t (ix2 p d) * blkWh m c t (ix2 d f))
      = stepSum (m ((c : Thread nD τ).loc main_arg0)) (m ((c : Thread nD τ).loc main_arg1)) (m ((c : Thread nD τ).loc main_arg3)) (m ((c : Thread nD τ).loc main_arg5)) (grow (rblk t) p) f (t.val % 16) := by
  unfold stepSum
  congr 1
  · refine Finset.sum_congr rfl fun d _ => ?_
    rw [show blkX m c t (ix2 p d) = _ from iblk0_apply m c t p d, show blkWi m c t (ix2 d f) = _ from iblk3_apply m c t d f]
    exact (dotTerm_kpos _ _ _ _ (kstep t) d).symm
  · refine Finset.sum_congr rfl fun d _ => ?_
    rw [show blkH m c t (ix2 p d) = _ from iblk1_apply m c t p d, show blkWh m c t (ix2 d f) = _ from iblk4_apply m c t d f]
    exact (dotTerm_kpos _ _ _ _ (kstep t) d).symm

/-- What the step at point n adds to the accumulator of row block r, at an entry. -/
def addend (c : Dev nD) (r : Fin 32) (n : ℕ) (i : S256x8192.Idx) : EReal :=
  stepSum (m ((c : Thread nD τ).loc main_arg0)) (m ((c : Thread nD τ).loc main_arg1)) (m ((c : Thread nD τ).loc main_arg3)) (m ((c : Thread nD τ).loc main_arg5)) (grow r ⟨(i 0).val, idx2_lt0 i⟩) ⟨(i 1).val, idx2_lt1 i⟩ (n % 16)

/-- One step of the body on an accumulator holding acc: the entry plus the step's addend. -/
theorem step_apply (c : Dev nD) (t : Fin cfg0.N) (acc : Vec Ideal S256x8192 .f32) (i : S256x8192.Idx) :
    k0_pay2 (F := Ideal) (iblk m c 0 t) (iblk m c 1 t) acc (iblk m c 3 t) (iblk m c 4 t) i
      = acc i + addend m c (rblk t) t.val i := by
  obtain ⟨p, f, rfl⟩ : ∃ (p : Fin 256) (f : Fin 8192), i = ix2 p f := ⟨i 0, i 1, eq_ix2 i⟩
  refine (pay2_apply (blkX m c t) (blkH m c t) acc (blkWi m c t) (blkWh m c t) p f).trans ?_
  rw [step_eq]
  rfl

/-- The accumulator after point t. -/
theorem acc_after (c : Dev nD) (t : Fin cfg0.N) (i : S256x8192.Idx) :
    (outsAt0 m c t.val t.isLt).2.2 i
      = 0 + ∑ s ∈ Finset.range (t.val % 16 + 1), addend m c (rblk t) (16 * (t.val / 16) + s) i := by
  have hN : cfg0.N = 512 := N_0
  rw [Value.soutsAt0_0_eq m c t]
  refine Pipeline.accAt_add_apply (fun n h => Value.scAt0_0 m c n h (VS0_0.read (Elt Ideal) VS0_0.junk)) (Value.scAt0_0 m c)
    (fun _ => 0) (addend m c (rblk t)) (16 * (t.val / 16)) 15 ?_ ?_ (t.val % 16) (by omega) _ i
  · intro h i
    have h0 : (16 * (t.val / 16)) % 16 = 0 := Nat.mul_mod_right _ _
    have h1 : ¬(16 * (t.val / 16)) % 16 = 15 := by omega
    have hr : rblk ⟨16 * (t.val / 16), h⟩ = rblk t := Fin.ext (by show 16 * (t.val / 16) / 16 = t.val / 16; omega)
    show Value.scAt0_0 m c (16 * (t.val / 16)) h (VS0_0.read (Elt Ideal) VS0_0.junk) i = _
    unfold Value.scAt0_0
    rw [dif_pos h0, dif_neg h1]
    refine (congrFun (scratch_A c (grid0.coords ⟨16 * (t.val / 16), h⟩) (ms0_0 ⟨16 * (t.val / 16), h⟩) (hs0_0 ⟨16 * (t.val / 16), h⟩) (ms0_1 ⟨16 * (t.val / 16), h⟩) (hs0_1 ⟨16 * (t.val / 16), h⟩) (ms0_2 ⟨16 * (t.val / 16), h⟩) (hs0_2 ⟨16 * (t.val / 16), h⟩) (ms0_3 ⟨16 * (t.val / 16), h⟩) (hs0_3 ⟨16 * (t.val / 16), h⟩) (ms0_4 ⟨16 * (t.val / 16), h⟩) (hs0_4 ⟨16 * (t.val / 16), h⟩) (ms0_5 ⟨16 * (t.val / 16), h⟩) (hs0_5 ⟨16 * (t.val / 16), h⟩) (ms0_6 ⟨16 * (t.val / 16), h⟩) (hs0_6 ⟨16 * (t.val / 16), h⟩) (ms0_7 ⟨16 * (t.val / 16), h⟩) (hs0_7 ⟨16 * (t.val / 16), h⟩) scM0_0 (Memref.isWhole_whole _) ((hcond0_0 ⟨16 * (t.val / 16), h⟩).mpr h0) (fun hh => h1 ((hcond0_1 ⟨16 * (t.val / 16), h⟩).mp hh)) (iblk m c 0 ⟨16 * (t.val / 16), h⟩) (iblk m c 1 ⟨16 * (t.val / 16), h⟩) (iblk m c 2 ⟨16 * (t.val / 16), h⟩) (iblk m c 3 ⟨16 * (t.val / 16), h⟩) (iblk m c 4 ⟨16 * (t.val / 16), h⟩) (iblk m c 5 ⟨16 * (t.val / 16), h⟩)) i).trans ?_
    rw [step_apply m c ⟨16 * (t.val / 16), h⟩ (k0_pay1 (F := Ideal)) i, pay1_apply, hr]
  · intro n h acc i hlo hhi
    have h0 : ¬n % 16 = 0 := by omega
    have hr : rblk ⟨n, h⟩ = rblk t := Fin.ext (by show n / 16 = t.val / 16; omega)
    unfold Value.scAt0_0
    rw [dif_neg h0]
    by_cases h1 : n % 16 = 15
    · rw [dif_pos h1]
      refine (congrFun (scratch_C c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (iblk m c 4 ⟨n, h⟩) (iblk m c 5 ⟨n, h⟩) acc) i).trans ?_
      rw [step_apply m c ⟨n, h⟩ acc i, hr]
    · rw [dif_neg h1]
      refine (congrFun (scratch_B c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩) (iblk m c 5 ⟨n, h⟩) acc) i).trans ?_
      rw [step_apply m c ⟨n, h⟩ acc i, hr]

end Cert.KernelIdeal.Accumulator

end
-- ==== Proof.KernelValue.lean ====
/-
  What the kernel's two result arrays hold after the run: the new hidden state and the new cell state.

  A result block is written back only at the last reduction step of its row block. There the accumulator holds the sum
  of all sixteen steps, so with the summed bias its entries are the pre-activations of the block's rows, and the body's
  epilogue turns them and the old cell state's block into the two new states' blocks. The blocks written back by the 32
  last steps tile each result array.
-/
import proofs.«111230_j73048803770861_2_alg».proof.Proof.Gen.KernelIdeal.Value
import proofs.«111230_j73048803770861_2_alg».proof.Proof.Accumulator
import proofs.«111230_j73048803770861_2_alg».proof.Proof.RowBlock
import proofs.«111230_j73048803770861_2_alg».proof.Proof.Pieces
import proofs.«111230_j73048803770861_2_alg».proof.Proof.Blocks
import proofs.«111230_j73048803770861_2_alg».proof.Proof.LstmCell

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Cert.LstmCell Cert.KernelIdeal.Blocks
open Cert.KernelIdeal.Pieces Cert.KernelIdeal.RowBlock Cert.KernelIdeal.Accumulator
open scoped BigOperators

variable (m : (ℓ : Loc nD τ sig) → Buf (Elt Ideal) ℓ) (ρ : Dev nD → PrngReg)

/-- The accumulator after point t, the bias row and the old cell state's block at point t, as arrays of extended reals. -/
abbrev accAt (c : Dev nD) (t : Fin cfg0.N) : FVec Ideal S256x8192 .f32 := (outsAt0 m c t.val t.isLt).2.2
abbrev biasAt (c : Dev nD) (t : Fin cfg0.N) : FVec Ideal S1x8192 .f32 := iblk m c 5 t
abbrev cellAt (c : Dev nD) (t : Fin cfg0.N) : FVec Ideal S256x2048 .f32 := iblk m c 2 t

/-- After the last step of a row block the accumulator plus the bias row is the pre-activation of the block's rows. -/
theorem gate_eq (c : Dev nD) (t : Fin cfg0.N) (h15 : t.val % 16 = 15) (p : Fin 256) (f : Fin 8192) :
    gateAt (accAt m c t) (biasAt m c t) p f = pre (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (grow (rblk t) p) f := by
  unfold gateAt
  rw [show accAt m c t (ix2 p f) = _ from acc_after m c t (ix2 p f),
    show biasAt m c t (ix2 (0 : Fin 1) f) = _ from iblk5_apply m c t f, h15]
  have hs : ∑ s ∈ Finset.range (15 + 1), addend m c (rblk t) (16 * (t.val / 16) + s) (ix2 p f)
      = ∑ s ∈ Finset.range 16, stepSum (m ((c : Thread nD τ).loc main_arg0)) (m ((c : Thread nD τ).loc main_arg1)) (m ((c : Thread nD τ).loc main_arg3)) (m ((c : Thread nD τ).loc main_arg5)) (grow (rblk t) p) f s :=
    Finset.sum_congr rfl fun s hs => by
      have hlt : s < 16 := Finset.mem_range.mp hs
      unfold addend
      rw [show (16 * (t.val / 16) + s) % 16 = s from by omega]
  rw [hs]
  exact pre_blocked _ _ _ _ _ _ _ _

/-- The block's new cell state at an entry is the new cell state at the matching entry of the whole array. -/
theorem blockC_eq (c : Dev nD) (t : Fin cfg0.N) (h15 : t.val % 16 = 15) (j : S256x2048.Idx) (i : S8192x2048.Idx)
    (h0 : (i 0).val = 256 * (t.val / 16) + (j 0).val) (h1 : (i 1).val = (j 1).val) :
    blockC (accAt m c t) (biasAt m c t) (cellAt m c t) j = newC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) i := by
  have hrow : xrow i = grow (rblk t) (brow j) := Fin.ext h0
  have hcol : xcol i = bcol j := Fin.ext h1
  unfold blockC newC
  rw [gate_eq m c t h15, gate_eq m c t h15, gate_eq m c t h15, hrow, hcol,
    show cellAt m c t j = _ from iblk2_at m c t j i h0 h1]

/-- The block's new hidden state likewise. -/
theorem blockH_eq (c : Dev nD) (t : Fin cfg0.N) (h15 : t.val % 16 = 15) (j : S256x2048.Idx) (i : S8192x2048.Idx)
    (h0 : (i 0).val = 256 * (t.val / 16) + (j 0).val) (h1 : (i 1).val = (j 1).val) :
    blockH (accAt m c t) (biasAt m c t) (cellAt m c t) j = newH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) i := by
  have hrow : xrow i = grow (rblk t) (brow j) := Fin.ext h0
  have hcol : xcol i = bcol j := Fin.ext h1
  unfold blockH newH
  rw [gate_eq m c t h15, hrow, hcol, blockC_eq m c t h15 j i h0 h1]

/-- What a point that writes back result two writes is the block of the new cell state at its rows. -/
theorem flushed7_eq (c : Dev nD) (t : Fin cfg0.N) (hf : (cfg0.win 7).flush t = true) :
    (dats m 0 c).flushed 7 t = ((cfg0.win 7).blk t).view.read (Elt Ideal) (newC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  have hN : cfg0.N = 512 := N_0
  have h15 : t.val % 16 = 15 := (flush0_7 t).mp hf
  have h0 : ¬t.val % 16 = 0 := by omega
  obtain ⟨-, -, -, -, -, -, -, -, -, -, -, -, e60, e61, e70, e71⟩ := idx_facts t
  have e := outsAt0_C m c t h0 h15
  have e3 : accAt m c t = _ := (Prod.ext_iff.mp (Prod.ext_iff.mp e).2).2
  have e2 : (outsAt0 m c t.val t.isLt).2.1 = _ := (Prod.ext_iff.mp (Prod.ext_iff.mp e).2).1
  dsimp only at e2 e3
  rw [Value.flushed7 m c t]
  funext j
  show (outsAt0 m c t.val t.isLt).2.1 j = newC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 7).blk t).view.emb j)
  rw [e2, out7_C', ← e3]
  exact blockC_eq m c t h15 j _
    (by show win0_7.index t (0 : Fin 2) * 256 + 1 * (j 0).val = _; rw [e70]; omega)
    (by show win0_7.index t (1 : Fin 2) * 2048 + 1 * (j 1).val = _; rw [e71]; omega)

/-- Every entry of result two lies in the block of the last step of its row block, which is written back. -/
theorem cover7 (i : S8192x2048.Idx) : ∃ t : Fin cfg0.N, (cfg0.win 7).flush t = true ∧ i ∈ ((cfg0.win 7).blk t).view.set := by
  have hN : cfg0.N = 512 := N_0
  have hi0 : (i 0).val < 8192 := idx2_lt0 i
  have hi1 : (i 1).val < 2048 := idx2_lt1 i
  have hb : 16 * ((i 0).val / 256) + 15 < cfg0.N := by omega
  obtain ⟨-, -, -, -, -, -, -, -, -, -, -, -, e60, e61, e70, e71⟩ := idx_facts ⟨16 * ((i 0).val / 256) + 15, hb⟩
  refine ⟨⟨16 * ((i 0).val / 256) + 15, hb⟩, (flush0_7 _).mpr (by show (16 * ((i 0).val / 256) + 15) % 16 = 15; omega), ?_⟩
  show i ∈ ((View.whole main_v4_1).slice (win0_7.rect ⟨16 * ((i 0).val / 256) + 15, hb⟩)).set
  rw [View.set_slice_whole, Rect.mem_set_unit]
  intro a
  match a with
  | ⟨0, _⟩ =>
    show win0_7.index ⟨16 * ((i 0).val / 256) + 15, hb⟩ (0 : Fin 2) * 256 ≤ (i 0).val
      ∧ (i 0).val < win0_7.index ⟨16 * ((i 0).val / 256) + 15, hb⟩ (0 : Fin 2) * 256 + 256
    rw [e70]
    show (16 * ((i 0).val / 256) + 15) / 16 * 256 ≤ (i 0).val ∧ (i 0).val < (16 * ((i 0).val / 256) + 15) / 16 * 256 + 256
    omega
  | ⟨1, _⟩ =>
    show win0_7.index ⟨16 * ((i 0).val / 256) + 15, hb⟩ (1 : Fin 2) * 2048 ≤ (i 1).val
      ∧ (i 1).val < win0_7.index ⟨16 * ((i 0).val / 256) + 15, hb⟩ (1 : Fin 2) * 2048 + 2048
    rw [e71]
    omega

/-- So after the run result two holds the new cell state. -/
theorem final7 (c : Dev nD) : (dats m 0 c).arrAt 7 cfg0.N = newC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 7 (newC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) (flushed7_eq m c) cover7

/-- What a point that writes back result one writes is the block of the new hidden state at its rows. -/
theorem flushed6_eq (c : Dev nD) (t : Fin cfg0.N) (hf : (cfg0.win 6).flush t = true) :
    (dats m 0 c).flushed 6 t = ((cfg0.win 6).blk t).view.read (Elt Ideal) (newH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  have hN : cfg0.N = 512 := N_0
  have h15 : t.val % 16 = 15 := (flush0_6 t).mp hf
  have h0 : ¬t.val % 16 = 0 := by omega
  obtain ⟨-, -, -, -, -, -, -, -, -, -, -, -, e60, e61, e70, e71⟩ := idx_facts t
  have e := outsAt0_C m c t h0 h15
  have e3 : accAt m c t = _ := (Prod.ext_iff.mp (Prod.ext_iff.mp e).2).2
  have e2 : (outsAt0 m c t.val t.isLt).1 = _ := (Prod.ext_iff.mp e).1
  dsimp only at e2 e3
  rw [Value.flushed6 m c t]
  funext j
  show (outsAt0 m c t.val t.isLt).1 j = newH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 6).blk t).view.emb j)
  rw [e2, out6_C', ← e3]
  exact blockH_eq m c t h15 j _
    (by show win0_6.index t (0 : Fin 2) * 256 + 1 * (j 0).val = _; rw [e60]; omega)
    (by show win0_6.index t (1 : Fin 2) * 2048 + 1 * (j 1).val = _; rw [e61]; omega)

/-- Every entry of result one lies in the block of the last step of its row block, which is written back. -/
theorem cover6 (i : S8192x2048.Idx) : ∃ t : Fin cfg0.N, (cfg0.win 6).flush t = true ∧ i ∈ ((cfg0.win 6).blk t).view.set := by
  have hN : cfg0.N = 512 := N_0
  have hi0 : (i 0).val < 8192 := idx2_lt0 i
  have hi1 : (i 1).val < 2048 := idx2_lt1 i
  have hb : 16 * ((i 0).val / 256) + 15 < cfg0.N := by omega
  obtain ⟨-, -, -, -, -, -, -, -, -, -, -, -, e60, e61, e70, e71⟩ := idx_facts ⟨16 * ((i 0).val / 256) + 15, hb⟩
  refine ⟨⟨16 * ((i 0).val / 256) + 15, hb⟩, (flush0_6 _).mpr (by show (16 * ((i 0).val / 256) + 15) % 16 = 15; omega), ?_⟩
  show i ∈ ((View.whole main_v4_0).slice (win0_6.rect ⟨16 * ((i 0).val / 256) + 15, hb⟩)).set
  rw [View.set_slice_whole, Rect.mem_set_unit]
  intro a
  match a with
  | ⟨0, _⟩ =>
    show win0_6.index ⟨16 * ((i 0).val / 256) + 15, hb⟩ (0 : Fin 2) * 256 ≤ (i 0).val
      ∧ (i 0).val < win0_6.index ⟨16 * ((i 0).val / 256) + 15, hb⟩ (0 : Fin 2) * 256 + 256
    rw [e60]
    show (16 * ((i 0).val / 256) + 15) / 16 * 256 ≤ (i 0).val ∧ (i 0).val < (16 * ((i 0).val / 256) + 15) / 16 * 256 + 256
    omega
  | ⟨1, _⟩ =>
    show win0_6.index ⟨16 * ((i 0).val / 256) + 15, hb⟩ (1 : Fin 2) * 2048 ≤ (i 1).val
      ∧ (i 1).val < win0_6.index ⟨16 * ((i 0).val / 256) + 15, hb⟩ (1 : Fin 2) * 2048 + 2048
    rw [e61]
    omega

/-- So after the run result one holds the new hidden state. -/
theorem final6 (c : Dev nD) : (dats m 0 c).arrAt 6 cfg0.N = newH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 6 (newH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) (flushed6_eq m c) cover6

/-- The run: result one ends at the new hidden state, result two at the new cell state, the arguments unchanged. -/
theorem run : θ_run defs (onTc (τ := τ) (main (F := Ideal))) ⟨m, fun _ => 0, ρ⟩ fun r => ∀ c : Dev nD,
      r.2.mem ((c : Thread nD τ).loc main_v4_0) = newH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_v4_1) = newC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.KernelIdeal.KernelValue

end
-- ==== Proof.RefValue.lean ====
/-
  The reference program's two results, entry by entry, are the cell's formulas of the pre-activations.

  The reference computes the whole [8192, 8192] matrix of pre-activations as (x·W_i + b_i) + (h·W_h + b_h), cuts it into
  the four gates' column blocks, applies 1 / (1 + exp(−·)) to three of them and tanh to the fourth, and combines them with
  the old cell state. On the extended reals 1 / (1 + exp(−v)) is the logistic function of v by definition, so the new
  cell state and the new hidden state at (p, q) are the cell's formulas of the pre-activations in gate columns q,
  2048 + q, 4096 + q and 6144 + q of row p.
-/
import proofs.«111230_j73048803770861_2_alg».proof.Proof.Gen.ReferenceIdeal.Read
import proofs.«111230_j73048803770861_2_alg».proof.Proof.LstmCell
import Idealize.ShloMosaic.PureOps.IdealRules
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.LstmCell
open scoped BigOperators

/-- The word of the constant in the reference's quotients denotes the number one. -/
theorem one_word : Ideal.ofBits .f32 0x3F800000#32 = 1 := IdealRules.sign_bit.ideal_onePat .f32

/-- The matrix of pre-activations at an entry. -/
theorem gates_apply (x0 x1 x2 : FVec Ideal S8192x2048 .f32) (x3 : FVec Ideal S2048x8192 .f32) (x4 : FVec Ideal S8192 .f32) (x5 : FVec Ideal S2048x8192 .f32) (x6 : FVec Ideal S8192 .f32) (i : S8192x8192.Idx) (p f : Fin 8192) (hp : p.val = (i 0).val) (hf : f.val = (i 1).val) :
    val_main_v8 (F := Ideal) x0 x1 x3 x4 x5 x6 i = pre x0 x1 x3 x5 x4 x6 p f := by
  have hl0 : ∀ k, lidx_main_v0 i k = ix2 p k := fun k => funext fun a => Fin.ext (by
    match a with
    | ⟨0, _⟩ => exact hp.symm
    | ⟨1, _⟩ => rfl)
  have hr0 : ∀ k, ridx_main_v0 i k = ix2 k f := fun k => funext fun a => Fin.ext (by
    match a with
    | ⟨0, _⟩ => rfl
    | ⟨1, _⟩ => exact hf.symm)
  have hl4 : ∀ k, lidx_main_v4 i k = ix2 p k := hl0
  have hr4 : ∀ k, ridx_main_v4 i k = ix2 k f := hr0
  have hb1 : idx_main_v1 (idx_main_v2 i) = ix1 f := funext fun a => Fin.ext (by
    match a with
    | ⟨0, _⟩ => exact hf.symm)
  have hb5 : idx_main_v5 (idx_main_v6 i) = ix1 f := hb1
  rw [val_main_v8_apply, val_main_v3_apply, val_main_v7_apply, val_main_v0_apply, val_main_v4_apply, val_main_v2_apply,
    val_main_v1_apply, val_main_v6_apply, val_main_v5_apply]
  simp only [hl0, hr0, hl4, hr4, hb1, hb5]
  rfl

/-- The reference's second result is the new cell state. -/
theorem refC_eq (x0 x1 x2 : FVec Ideal S8192x2048 .f32) (x3 : FVec Ideal S2048x8192 .f32) (x4 : FVec Ideal S8192 .f32) (x5 : FVec Ideal S2048x8192 .f32) (x6 : FVec Ideal S8192 .f32) : val_main_v34 (F := Ideal) x0 x1 x2 x3 x4 x5 x6 = newC x0 x1 x2 x3 x5 x4 x6 := by
  funext i
  rw [val_main_v34_apply, val_main_v32_apply, val_main_v33_apply,
    val_main_v18_apply, val_main_v17_apply, val_main_v16_apply, val_main_v15_apply, val_main_v14_apply, val_main_v13_apply, val_main_v9_apply,
    val_main_v24_apply, val_main_v23_apply, val_main_v22_apply, val_main_v21_apply, val_main_v20_apply, val_main_v19_apply, val_main_v10_apply,
    val_main_v25_apply, val_main_v11_apply,
    val_main_cst_apply, val_main_cst_0_apply, val_main_cst_1_apply, val_main_cst_2_apply,
    gates_apply x0 x1 x2 x3 x4 x5 x6 (idx_main_v9 i) (xrow i) (col 0 (xcol i)) rfl (by show 2048 * 0 + (i 1).val = (i 1).val; omega),
    gates_apply x0 x1 x2 x3 x4 x5 x6 (idx_main_v10 i) (xrow i) (col 1 (xcol i)) rfl (by show 2048 * 1 + (i 1).val = 2048 + (i 1).val; omega),
    gates_apply x0 x1 x2 x3 x4 x5 x6 (idx_main_v11 i) (xrow i) (col 2 (xcol i)) rfl (by show 2048 * 2 + (i 1).val = 4096 + (i 1).val; omega)]
  simp only [Ideal.ofBits_def, one_word]
  rfl

/-- The reference's first result is the new hidden state. -/
theorem refH_eq (x0 x1 x2 : FVec Ideal S8192x2048 .f32) (x3 : FVec Ideal S2048x8192 .f32) (x4 : FVec Ideal S8192 .f32) (x5 : FVec Ideal S2048x8192 .f32) (x6 : FVec Ideal S8192 .f32) : val_main_v36 (F := Ideal) x0 x1 x2 x3 x4 x5 x6 = newH x0 x1 x2 x3 x5 x4 x6 := by
  funext i
  rw [val_main_v36_apply, val_main_v35_apply,
    val_main_v31_apply, val_main_v30_apply, val_main_v29_apply, val_main_v28_apply, val_main_v27_apply, val_main_v26_apply, val_main_v12_apply,
    val_main_cst_3_apply, val_main_cst_4_apply,
    gates_apply x0 x1 x2 x3 x4 x5 x6 (idx_main_v12 i) (xrow i) (col 3 (xcol i)) rfl (by show 2048 * 3 + (i 1).val = 6144 + (i 1).val; omega),
    refC_eq]
  simp only [Ideal.ofBits_def, one_word]
  rfl

end Cert.ReferenceIdeal.RefValue

end
-- ==== Proof.lean ====
/-
  One step of an LSTM cell, computed by a tiled kernel and by a plain reference, gives the same two arrays on the
  extended reals.

  Both programs form, for every row p and gate column f, the pre-activation
  (x·W_i)(p, f) + b_i(f) + (h·W_h)(p, f) + b_h(f), and from the four gates' pre-activations and the old cell state the new
  cell state s(f)·c + s(i)·tanh(g) and the new hidden state s(o)·tanh(new cell state), s the logistic function. The
  reference takes each inner product whole and adds each bias to its own product. The kernel walks 32 row blocks times
  16 reduction steps: at a step it adds 128 terms of both inner products to an accumulator that it reset at the row
  block's first step, and at the last step it adds the two biases' sum and applies the cell's formulas chunk by chunk.
  The two orders of summation agree because addition of extended reals is commutative and associative; no entry needs
  to be finite for that, so the precondition is never opened. The kernel's logistic function and the reference's
  1 / (1 + exp(−·)) are one function on the extended reals by definition, and the changes of number format the kernel
  makes on the way to the matrix unit are the identity there.

  The kernel's run and the reference's run are the generated ones; the frames are theirs; no operation of the kernel
  was rewritten for the ideal reading, so that part of the claim is trivial.
-/
import proofs.«111230_j73048803770861_2_alg».proof.Defs
import proofs.«111230_j73048803770861_2_alg».proof.Proof.Gen.Kernel
import proofs.«111230_j73048803770861_2_alg».proof.Proof.Gen.Kernel.Skeleton
import proofs.«111230_j73048803770861_2_alg».proof.Proof.Gen.Kernel.Launch
import proofs.«111230_j73048803770861_2_alg».proof.Proof.Gen.Kernel.Points
import proofs.«111230_j73048803770861_2_alg».proof.Proof.Gen.Kernel.Frame
import proofs.«111230_j73048803770861_2_alg».proof.Proof.Gen.KernelIdeal
import proofs.«111230_j73048803770861_2_alg».proof.Proof.Gen.KernelIdeal.Skeleton
import proofs.«111230_j73048803770861_2_alg».proof.Proof.Gen.KernelIdeal.Launch
import proofs.«111230_j73048803770861_2_alg».proof.Proof.Gen.KernelIdeal.Points
import proofs.«111230_j73048803770861_2_alg».proof.Proof.Gen.KernelIdeal.Frame
import proofs.«111230_j73048803770861_2_alg».proof.Proof.Gen.ReferenceIdeal
import proofs.«111230_j73048803770861_2_alg».proof.Proof.Gen.Pre_finite_inputs
import proofs.«111230_j73048803770861_2_alg».proof.Proof.Gen.KernelIdeal.Value
import proofs.«111230_j73048803770861_2_alg».proof.Proof.Gen.ReferenceIdeal.Run
import proofs.«111230_j73048803770861_2_alg».proof.Proof.Gen.ReferenceIdeal.Read
import proofs.«111230_j73048803770861_2_alg».proof.Proof.KernelValue
import proofs.«111230_j73048803770861_2_alg».proof.Proof.RefValue
import Idealize.ShloMosaic.Adequacy
import Idealize.ShloMosaic.Init

noncomputable section

namespace Cert.Proof

open Idealize.ShloMosaic Idealize.SL.Sem Cert.LstmCell

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the new hidden state (returned twice) and the new cell state of the same arguments. -/
theorem algebraic : Cert.algebraic_KernelIdeal_ReferenceIdeal := by
  intro m ρ m' ρ' _ hagree
  refine ⟨fun c => newH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)), fun c => newH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)), fun c => newC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)), ?_, ?_⟩
  · exact (θ_run Cert.KernelIdeal.defs _ _).mono (fun r h c => ⟨(h c).1, (h c).1, (h c).2.1, (h c).2.2⟩)
      (Cert.KernelIdeal.KernelValue.run m ρ)
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v36_eq, Cert.ReferenceIdeal.RefValue.refH_eq, (hagree c).1,
        (hagree c).2.1, (hagree c).2.2.1, (hagree c).2.2.2.1, (hagree c).2.2.2.2.1, (hagree c).2.2.2.2.2.1,
        (hagree c).2.2.2.2.2.2]
    · rw [(h c).1, Cert.ReferenceIdeal.Read.val_main_v36_eq, Cert.ReferenceIdeal.RefValue.refH_eq, (hagree c).1,
        (hagree c).2.1, (hagree c).2.2.1, (hagree c).2.2.2.1, (hagree c).2.2.2.2.1, (hagree c).2.2.2.2.2.1,
        (hagree c).2.2.2.2.2.2]
    · rw [(h c).2.2.1, Cert.ReferenceIdeal.Read.val_main_v34_eq, Cert.ReferenceIdeal.RefValue.refC_eq, (hagree c).1,
        (hagree c).2.1, (hagree c).2.2.1, (hagree c).2.2.2.1, (hagree c).2.2.2.2.1, (hagree c).2.2.2.2.2.1,
        (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
